-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x128 : Shape := ⟨3, ![1024, 1, 128]⟩
abbrev S1024x200x128 : Shape := ⟨3, ![1024, 200, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1024x1x128 : S_.BroadcastsInDim S1024x1x128 (![] : Fin 0 → Fin S1024x1x128.rank)
  reducesTo_S1024x1x128_S_d0_1_2 : S1024x1x128.ReducesTo [0, 1, 2] S_
  h_S_ : 0 < S_.numel
  bcast_S_S1024x200x128 : S_.BroadcastsInDim S1024x200x128 (![] : Fin 0 → Fin S1024x200x128.rank)
  reducesTo_S1024x200x128_S_d0_1_2 : S1024x200x128.ReducesTo [0, 1, 2] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x1 .f32) (main_arg5 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1024x1x128 .f32) (main_arg1 : FVec F S1024x200x128 .f32) (main_arg2 : FVec F S512x64 .f32) (main_arg3 : FVec F S64 .f32) (main_arg4 : FVec F S64x1 .f32) (main_arg5 : FVec F S1 .f32) : IVec S_ 1 :=
  let main_v0 : FVec F S1024x1x128 .f32 := Host.absf main_arg0
  let main_cst : FVec F S_ .f32 := constant S_ .f32 0x7F800000#32
  let main_v1 : FVec F S1024x1x128 .f32 := broadcastInDim S1024x1x128 ![] bcast_S_S1024x1x128 main_cst
  let main_v2 : IVec S1024x1x128 1 := cmpf .olt main_v0 main_v1
  let main_c : IVec S_ 1 := constantI S_ 1 1#1
  let main_v3 : IVec S_ 1 := (fun x v => Host.reduce IntOp.andi x v reducesTo_S1024x1x128_S_d0_1_2 h_S_) main_v2 main_c
  let main_v4 : FVec F S1024x200x128 .f32 := Host.absf main_arg1
  let main_cst_0 : FVec F S_ .f32 := constant S_ .f32 0x7F800000#32
  let main_v5 : FVec F S1024x200x128 .f32 := broadcastInDim S1024x200x128 ![] bcast_S_S1024x200x128 main_cst_0
  let main_v6 : IVec S1024x200x128 1 := cmpf .olt main_v4 main_v5
  let main_c_1 : IVec S_ 1 := constantI S_ 1 1#1
  let main_v7 : IVec S_ 1 := (fun x v => Host.reduce IntOp.andi x v reducesTo_S1024x200x128_S_d0_1_2 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S1024x1x128 : Shape := ⟨3, ![1024, 1, 128]⟩
abbrev S1024x200x128 : Shape := ⟨3, ![1024, 200, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S256x64 : Shape := ⟨2, ![256, 64]⟩
abbrev S1024x200 : Shape := ⟨2, ![1024, 200]⟩
abbrev S32x1x128 : Shape := ⟨3, ![32, 1, 128]⟩
abbrev S32x200x128 : Shape := ⟨3, ![32, 200, 128]⟩
abbrev S32x200 : Shape := ⟨2, ![32, 200]⟩
abbrev S32x200x256 : Shape := ⟨3, ![32, 200, 256]⟩
abbrev S6400x256 : Shape := ⟨2, ![6400, 256]⟩
abbrev S6400x64 : Shape := ⟨2, ![6400, 64]⟩
abbrev S32x200x64 : Shape := ⟨3, ![32, 200, 64]⟩
abbrev S32x128 : Shape := ⟨2, ![32, 128]⟩
abbrev S32x64 : Shape := ⟨2, ![32, 64]⟩
abbrev S32x1x64 : Shape := ⟨3, ![32, 1, 64]⟩
abbrev S1x1x64 : Shape := ⟨3, ![1, 1, 64]⟩
abbrev S1024x200x1 : Shape := ⟨3, ![1024, 200, 1]⟩

abbrev nBuf : Space → Nat
  | .hbm => 16
  | .vmem => 11
  | .smem => 0
  | _ => 0

abbrev bufTy : (tb : Table) → Fin (tcTables nBuf tb) → BufTy
  | .hbm, ⟨0, _⟩ => ⟨S1024x1x128, .f32⟩
  | .hbm, ⟨1, _⟩ => ⟨S1024x200x128, .f32⟩
  | .hbm, ⟨2, _⟩ => ⟨S512x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S256x64, .f32⟩
  | .hbm, ⟨13, _⟩ => ⟨S64, .f32⟩
  | .hbm, ⟨14, _⟩ => ⟨S1024x200, .f32⟩
  | .hbm, ⟨15, _⟩ => ⟨S1024x200x1, .f32⟩
  | .local _ .vmem, ⟨0, _⟩ => ⟨S32x1x128, .f32⟩
  | .local _ .vmem, ⟨1, _⟩ => ⟨S32x1x128, .f32⟩
  | .local _ .vmem, ⟨2, _⟩ => ⟨S32x200x128, .f32⟩
  | .local _ .vmem, ⟨3, _⟩ => ⟨S32x200x128, .f32⟩
  | .local _ .vmem, ⟨4, _⟩ => ⟨S128x64, .f32⟩
  | .local _ .vmem, ⟨5, _⟩ => ⟨S256x64, .f32⟩
  | .local _ .vmem, ⟨6, _⟩ => ⟨S64, .f32⟩
  | .local _ .vmem, ⟨7, _⟩ => ⟨S64, .f32⟩
  | .local _ .vmem, ⟨8, _⟩ => ⟨S1, .f32⟩
  | .local _ .vmem, ⟨9, _⟩ => ⟨S32x200, .f32⟩
  | .local _ .vmem, ⟨10, _⟩ => ⟨S32x200, .f32⟩
  | _, _ => ⟨S1024x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S512x64_S128x64_0_0 : S512x64.Slices ![0, 0] S128x64
  slices_S512x64_S128x64_128_0 : S512x64.Slices ![128, 0] S128x64
  slices_S512x64_S128x64_256_0 : S512x64.Slices ![256, 0] S128x64
  slices_S512x64_S128x64_384_0 : S512x64.Slices ![384, 0] S128x64
  concatenates_S128x64_S128x64_S256x64_d0 : Shape.Concatenates [S128x64, S128x64] S256x64 0
  shapeCasts_S64x1_S64 : S64x1.ShapeCasts S64
  inb_S32x1x128_S32x1x128_0_0_0 : ∀ a, (![0, 0, 0] : Fin 3 → Nat) a + S32x1x128.size a ≤ S32x1x128.size a
  h_S32x1x128 : 0 < S32x1x128.numel
  inb_S32x200x128_S32x200x128_0_0_0 : ∀ a, (![0, 0, 0] : Fin 3 → Nat) a + S32x200x128.size a ≤ S32x200x128.size a
  h_S32x200x128 : 0 < S32x200x128.numel
  shapeCasts_S32x1x128_S32x1x128 : S32x1x128.ShapeCasts S32x1x128
  broadcasts_S32x1x128_S32x200x128 : S32x1x128.Broadcasts S32x200x128
  bitsLt_bf16_f32 : FTy.bits .bf16 < FTy.bits .f32
  concatenates_S32x200x128_S32x200x128_S32x200x256_d2 : Shape.Concatenates [S32x200x128, S32x200x128] S32x200x256 2
  shapeCasts_S32x200x256_S6400x256 : S32x200x256.ShapeCasts S6400x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S6400x64_S32x200x64 : S6400x64.ShapeCasts S32x200x64
  shapeCasts_S32x1x128_S32x128 : S32x1x128.ShapeCasts S32x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S32x64_S32x1x64 : S32x64.ShapeCasts S32x1x64
  broadcasts_S32x1x64_S32x200x64 : S32x1x64.Broadcasts S32x200x64
  inb_S64_S64_0 : ∀ a, (![0] : Fin 1 → Nat) a + S64.size a ≤ S64.size a
  h_S64 : 0 < S64.numel
  shapeCasts_S64_S1x1x64 : S64.ShapeCasts S1x1x64
  broadcasts_S1x1x64_S32x200x64 : S1x1x64.Broadcasts S32x200x64
  shapeCasts_S64_S64 : S64.ShapeCasts S64
  reduces_S32x200x64_S32x200 : S32x200x64.Reduces [2] S32x200
  inb_S1_S1_0 : ∀ a, (![0] : Fin 1 → Nat) a + S1.size a ≤ S1.size a
  h_S1 : 0 < S1.numel
  inpos_S1_p0 : ∀ a, (![0] : Fin 1 → Nat) a < S1.size a
  inb_S32x200_S32x200_0_0 : ∀ a, (![0, 0] : Fin 2 → Nat) a + S32x200.size a ≤ S32x200.size a
  h_S32x200 : 0 < S32x200.numel
  bcast_S1024x200_S1024x200x1_0_1 : S1024x200.BroadcastsInDim S1024x200x1 (![0, 1] : Fin 2 → Fin S1024x200x1.rank)
  dot_S6400x256_S256x64_S6400x64_1_0_0_1_n_n_wf : DotDims.WF S6400x256 S256x64 S6400x64 [1] [0] [0] [1] [] []
  dot_S32x128_S128x64_S32x64_1_0_0_1_n_n_wf : DotDims.WF S32x128 S128x64 S32x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1x128.size a ≤ S1024x1x128.size a
  hwx0_0 : ∀ i : grid0.Coords, EltTy.bits .f32 = 32 ∨ (Rect.block (s := S1024x1x128) S32x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x128.size a ≤ S1024x200x128.size a
  hwx0_1 : ∀ i : grid0.Coords, EltTy.bits .f32 = 32 ∨ (Rect.block (s := S1024x200x128) S32x200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x200.size a ≤ S1024x200.size a
  hwx0_7 : ∀ i : grid0.Coords, EltTy.bits .f32 = 32 ∨ (Rect.block (s := S1024x200) S32x200.size (cc0_transform_7 i) (hinb0_7 i)).WholeWords (EltTy.packing .f32)

variable [Facts₀]

def dot_S6400x256_S256x64_S6400x64_1_0_0_1_n_n : DotDims S6400x256 S256x64 S6400x64 where
  lhsContracting := [1]
  rhsContracting := [0]
  lhsNonContracting := [0]
  rhsNonContracting := [1]
  lhsBatch := []
  rhsBatch := []
  wf := dot_S6400x256_S256x64_S6400x64_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf

abbrev win0_0 : Pipeline.Window sig grid0 :=
  Pipeline.Window.ofSpec (Memref.whole main_arg0) S32x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S32x200.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x1x128 : Shape := ⟨3, ![1024, 1, 128]⟩
abbrev S1024x200x128 : Shape := ⟨3, ![1024, 200, 128]⟩
abbrev S512x64 : Shape := ⟨2, ![512, 64]⟩
abbrev S64 : Shape := ⟨1, ![64]⟩
abbrev S64x1 : Shape := ⟨2, ![64, 1]⟩
abbrev S1 : Shape := ⟨1, ![1]⟩
abbrev S1024x200x512 : Shape := ⟨3, ![1024, 200, 512]⟩
abbrev S1024x200x64 : Shape := ⟨3, ![1024, 200, 64]⟩
abbrev S1x1x64 : Shape := ⟨3, ![1, 1, 64]⟩
abbrev S_ : Shape := ⟨0, ![]⟩
abbrev S1024x200x1 : Shape := ⟨3, ![1024, 200, 1]⟩
abbrev S1x1x1 : Shape := ⟨3, ![1, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S1024x1x128, .f32⟩
  | .hbm, ⟨1, _⟩ => ⟨S1024x200x128, .f32⟩
  | .hbm, ⟨2, _⟩ => ⟨S512x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1024x200x128, .f32⟩
  | .hbm, ⟨7, _⟩ => ⟨S1024x200x128, .f32⟩
  | .hbm, ⟨8, _⟩ => ⟨S1024x200x128, .f32⟩
  | .hbm, ⟨9, _⟩ => ⟨S1024x200x512, .f32⟩
  | .hbm, ⟨10, _⟩ => ⟨S1024x200x64, .f32⟩
  | .hbm, ⟨11, _⟩ => ⟨S1x1x64, .f32⟩
  | .hbm, ⟨12, _⟩ => ⟨S1024x200x64, .f32⟩
  | .hbm, ⟨13, _⟩ => ⟨S1024x200x64, .f32⟩
  | .hbm, ⟨14, _⟩ => ⟨S_, .f32⟩
  | .hbm, ⟨15, _⟩ => ⟨S1024x200x64, .f32⟩
  | .hbm, ⟨16, _⟩ => ⟨S1024x200x64, .f32⟩
  | .hbm, ⟨17, _⟩ => ⟨S1024x200x1, .f32⟩
  | .hbm, ⟨18, _⟩ => ⟨S1x1x1, .f32⟩
  | .hbm, ⟨19, _⟩ => ⟨S1024x200x1, .f32⟩
  | .hbm, ⟨20, _⟩ => ⟨S1024x200x1, .f32⟩
  | _, _ => ⟨S1024x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S1024x1x128_S1024x200x128_0_1_2 : S1024x1x128.BroadcastsInDim S1024x200x128 (![0, 1, 2] : Fin 3 → Fin S1024x200x128.rank)
  concatenates_S1024x200x128_S1024x200x128_S1024x200x128_S1024x200x128_S1024x200x512_d2 : Shape.Concatenates [S1024x200x128, S1024x200x128, S1024x200x128, S1024x200x128] S1024x200x512 2
  bcast_S64_S1x1x64_2 : S64.BroadcastsInDim S1x1x64 (![2] : Fin 1 → Fin S1x1x64.rank)
  bcast_S1x1x64_S1024x200x64_0_1_2 : S1x1x64.BroadcastsInDim S1024x200x64 (![0, 1, 2] : Fin 3 → Fin S1024x200x64.rank)
  bcast_S_S1024x200x64 : S_.BroadcastsInDim S1024x200x64 (![] : Fin 0 → Fin S1024x200x64.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  dot_S1024x200x512_S512x64_S1024x200x64_2_0_01_1_n_n_wf : DotDims.WF S1024x200x512 S512x64 S1024x200x64 [2] [0] [0, 1] [1] [] []
  dot_S1024x200x64_S64x1_S1024x200x1_2_0_01_1_n_n_wf : DotDims.WF S1024x200x64 S64x1 S1024x200x1 [2] [0] [0, 1] [1] [] []

variable [Facts₀]

def dot_S1024x200x512_S512x64_S1024x200x64_2_0_01_1_n_n : DotDims S1024x200x512 S512x64 S1024x200x64 where
  lhsContracting := [2]
  rhsContracting := [0]
  lhsNonContracting := [0, 1]
  rhsNonContracting := [1]
  lhsBatch := []
  rhsBatch := []
  wf := dot_S1024x200x512_S512x64_S1024x200x64_2_0_01_1_n_n_wf
def dot_S1024x200x64_S64x1_S1024x200x1_2_0_01_1_n_n : DotDims S1024x200x64 S64x1 S1024x200x1 where
  lhsContracting := [2]
  rhsContracting := [0]
  lhsNonContracting := [0, 1]
  rhsNonContracting := [1]
  lhsBatch := []
  rhsBatch := []
  wf := dot_S1024x200x64_S64x1_S1024x200x1_2_0_01_1_n_n_wf

class Facts : Prop extends Facts₀ where

variable [Facts]
-- ==== Proof.Finite.lean ====
import proofs.«131782_j36043365548306_2_alg».proof.Proof.Gen.Pre_finite_inputs
import Idealize.ShloMosaic.Lib.ReduceAll
import Idealize.ShloMosaic.Lib.ValueIdx
import Idealize.ShloMosaic.PureOps.Ideal

/-!
# What the precondition says: the query, the keys and the hidden layer's weights are real numbers

The precondition is the conjunction, over the six argument arrays, of "every entry's absolute value is below
`+∞`". On the extended reals `|x| < +∞` says exactly that `x` is neither `+∞` nor `-∞`. Only the first three arrays'
finiteness is used: the law that joins the two arrangements of the hidden layer distributes products over sums of
query, key and weight entries.
-/

noncomputable section

namespace Cert.Pre_finite_inputs.Finite

open Cert.Pre_finite_inputs Idealize.ShloMosaic

/-- The rank-0 shape has one index. -/
instance : Subsingleton S_.Idx := ⟨fun a b => funext fun d => d.elim0⟩

/-- The word `0x7F800000` is `+∞`. -/
theorem inf_bits : Ideal.ofBits .f32 0x7F800000#32 = (⊤ : EReal) := by simp [Ideal.ofBits, Ideal.ieee]

/-- An extended real whose absolute value compares below `+∞` is neither infinity. -/
theorem finite_of_abs_lt (x : EReal) (h : Ideal.cmp .olt (max x (-x)) (Ideal.ofBits .f32 0x7F800000#32) = 1#1) :
    x ≠ ⊤ ∧ x ≠ ⊥ := by
  rw [inf_bits] at h
  have hlt : max x (-x) < ⊤ := by
    by_contra hn
    simp [Ideal.cmp, hn] at h
  constructor
  · rintro rfl
    simp at hlt
  · rintro rfl
    simp at hlt

/-- **Under the precondition the first three argument arrays hold real numbers.** -/
theorem finite_of_pre (a0 : FVec Ideal S1024x1x128 .f32) (a1 : FVec Ideal S1024x200x128 .f32) (a2 : FVec Ideal S512x64 .f32)
    (a3 : FVec Ideal S64 .f32) (a4 : FVec Ideal S64x1 .f32) (a5 : FVec Ideal S1 .f32)
    (h : fn (F := Ideal) a0 a1 a2 a3 a4 a5 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, hW⟩ := IntOp.andi_eq_one.1 h3
  obtain ⟨hq, hk⟩ := IntOp.andi_eq_one.1 h4
  exact ⟨fun i => finite_of_abs_lt (a0 i) (Host.reduce_andi_all _ _ _ _ _ hq i),
    fun i => finite_of_abs_lt (a1 i) (Host.reduce_andi_all _ _ _ _ _ hk i),
    fun i => finite_of_abs_lt (a2 i) (Host.reduce_andi_all _ _ _ _ _ hW i)⟩

end Cert.Pre_finite_inputs.Finite

end
-- ==== Proof.Spec.lean ====
import Idealize.ShloMosaic.PureOps.Ideal
import Idealize.ShloMosaic.Lib.ValueIdx

/-!
# The attention score of one (batch, time) position, in two arrangements

The activation unit scores a key row `k` against a query row `q` (both of 128 features) through a hidden layer of 64
units. The hidden pre-activation of unit `h` is the inner product of the 512 features `[q, k, q - k, q * k]` with
column `h` of a 512-row weight matrix. Written by quarters of the matrix (`wa, wb, wc, wd`) it is

  Σ q·wa + Σ k·wb + Σ (q - k)·wc + Σ (q·k)·wd            (the split arrangement),

and, folding the query out of the difference term,

  (Σ k·(wb - wc) + Σ (q·k)·wd) + Σ q·(wa + wc)            (the folded arrangement).

The two agree whenever every entry is a real number (`hid_law`): distributivity needs finiteness on the extended
reals. The score is then `Σ_h max (hid h + b0 h) 0 * w1 h + b1` in both.
-/

noncomputable section

open scoped BigOperators

namespace Cert.Score

open Idealize.ShloMosaic Idealize.ShloMosaic.ValueIdx

/-! ## Positions inside the halves of 256 rows and the quarters of 512 rows -/

/-- Row `d` of the first half of 256 rows. -/
def lo (d : Fin 128) : Fin 256 := ⟨d.val, by omega⟩
/-- Row `d` of the second half of 256 rows. -/
def hi (d : Fin 128) : Fin 256 := ⟨128 + d.val, by omega⟩
/-- Row `d` of the first quarter of 512 rows. -/
def r0 (d : Fin 128) : Fin 512 := ⟨d.val, by omega⟩
/-- Row `d` of the second quarter of 512 rows. -/
def r1 (d : Fin 128) : Fin 512 := ⟨128 + d.val, by omega⟩
/-- Row `d` of the third quarter of 512 rows. -/
def r2 (d : Fin 128) : Fin 512 := ⟨256 + d.val, by omega⟩
/-- Row `d` of the fourth quarter of 512 rows. -/
def r3 (d : Fin 128) : Fin 512 := ⟨384 + d.val, by omega⟩

/-- A sum over 256 positions is the sum over its two halves. -/
theorem sum_halves {M : Type*} [AddCommMonoid M] (f : Fin 256 → M) :
    ∑ j, f j = ∑ d, f (lo d) + ∑ d, f (hi d) :=
  Fin.sum_univ_add (a := 128) (b := 128) f

/-- A sum over 512 positions is the sum over its four quarters. -/
theorem sum_quarters {M : Type*} [AddCommMonoid M] (f : Fin 512 → M) :
    ∑ j, f j = ∑ d, f (r0 d) + ∑ d, f (r1 d) + ∑ d, f (r2 d) + ∑ d, f (r3 d) := by
  have h1 := Fin.sum_univ_add (a := 384) (b := 128) f
  have h2 := Fin.sum_univ_add (a := 256) (b := 128) (fun i : Fin 384 => f (Fin.castAdd 128 i))
  have h3 := Fin.sum_univ_add (a := 128) (b := 128) (fun i : Fin 256 => f (Fin.castAdd 128 (Fin.castAdd 128 i)))
  rw [h1, h2, h3]
  rfl

/-! ## The hidden pre-activation -/

/-- The split arrangement: one inner product per quarter of the weight column. -/
def hidSplit (q k wa wb wc wd : Fin 128 → EReal) : EReal :=
  ∑ d, q d * wa d + ∑ d, k d * wb d + ∑ d, (q d - k d) * wc d + ∑ d, (q d * k d) * wd d

/-- The folded arrangement: the key and product rows against two stacked weight columns, plus the query row against
    a third. -/
def hidFolded (q k wq wk wp : Fin 128 → EReal) : EReal :=
  (∑ d, k d * wk d + ∑ d, (q d * k d) * wp d) + ∑ d, q d * wq d

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real entries the two arrangements agree: termwise,
    `q·a + k·b + (q - k)·c + q·k·d = (k·(b - c) + q·k·d) + q·(a + c)`. -/
theorem hid_law {n : ℕ} (q k wa wb wc wd : Fin n → ℝ) :
    ∑ d, (q d : EReal) * wa d + ∑ d, (k d : EReal) * wb d + ∑ d, ((q d : EReal) - k d) * wc d
        + ∑ d, ((q d : EReal) * k d) * wd d
      = (∑ d, (k d : EReal) * ((wb d : EReal) - wc d) + ∑ d, ((q d : EReal) * k d) * wd d)
        + ∑ d, (q d : EReal) * ((wa d : EReal) + wc d) := by
  simp only [← EReal.coe_mul, ← EReal.coe_sub, ← EReal.coe_add, ← coe_sum]
  refine congrArg _ ?_
  simp only [← Finset.sum_add_distrib]
  exact Finset.sum_congr rfl fun d _ => by ring

/-- The same for extended-real rows all of whose entries are finite. -/
theorem hid_split_eq_folded (q k wa wb wc wd : Fin 128 → EReal)
    (hq : ∀ d, q d ≠ ⊤ ∧ q d ≠ ⊥) (hk : ∀ d, k d ≠ ⊤ ∧ k d ≠ ⊥)
    (ha : ∀ d, wa d ≠ ⊤ ∧ wa d ≠ ⊥) (hb : ∀ d, wb d ≠ ⊤ ∧ wb d ≠ ⊥)
    (hc : ∀ d, wc d ≠ ⊤ ∧ wc d ≠ ⊥) (hd : ∀ d, wd d ≠ ⊤ ∧ wd d ≠ ⊥) :
    hidSplit q k wa wb wc wd = hidFolded q k (fun d => wa d + wc d) (fun d => wb d - wc d) wd := by
  lift q to Fin 128 → ℝ using hq
  lift k to Fin 128 → ℝ using hk
  lift wa to Fin 128 → ℝ using ha
  lift wb to Fin 128 → ℝ using hb
  lift wc to Fin 128 → ℝ using hc
  lift wd to Fin 128 → ℝ using hd
  exact hid_law q k wa wb wc wd

/-! ## The score -/

/-- The score from the 64 hidden pre-activations: bias, rectifier, the scorer's weights, its bias. -/
def score (hid b0 w1 : Fin 64 → EReal) (b1 : EReal) : EReal :=
  ∑ h, max (hid h + b0 h) 0 * w1 h + b1

/-- The score of a query row and a key row in the FOLDED arrangement, over the folded weight matrices
    `wq` (128 rows) and `wkp` (256 rows: the key block on top of the product block). -/
def rowScore (q k : Fin 128 → EReal) (wq : (⟨2, ![128, 64]⟩ : Shape).Idx → EReal)
    (wkp : (⟨2, ![256, 64]⟩ : Shape).Idx → EReal) (b0 w1 : (⟨1, ![64]⟩ : Shape).Idx → EReal)
    (b1 : (⟨1, ![1]⟩ : Shape).Idx → EReal) : EReal :=
  score (fun h => hidFolded q k (fun d => wq (ix2 d h)) (fun d => wkp (ix2 (lo d) h)) (fun d => wkp (ix2 (hi d) h)))
    (fun h => b0 (ix1 h)) (fun h => w1 (ix1 h)) (b1 (ix1 0))

/-- The score of position `(b, t)` in the SPLIT arrangement, over the whole argument arrays: the query `[1024, 1, 128]`,
    the keys `[1024, 200, 128]`, the hidden layer `[512, 64]` and `[64]`, the scorer `[64, 1]` and `[1]`. -/
def refScore (q : (⟨3, ![1024, 1, 128]⟩ : Shape).Idx → EReal) (k : (⟨3, ![1024, 200, 128]⟩ : Shape).Idx → EReal)
    (W0 : (⟨2, ![512, 64]⟩ : Shape).Idx → EReal) (b0 : (⟨1, ![64]⟩ : Shape).Idx → EReal)
    (W1 : (⟨2, ![64, 1]⟩ : Shape).Idx → EReal) (b1 : (⟨1, ![1]⟩ : Shape).Idx → EReal)
    (b : Fin 1024) (t : Fin 200) : EReal :=
  score (fun h => hidSplit (fun d => q (ix3 b 0 d)) (fun d => k (ix3 b t d))
      (fun d => W0 (ix2 (r0 d) h)) (fun d => W0 (ix2 (r1 d) h)) (fun d => W0 (ix2 (r2 d) h)) (fun d => W0 (ix2 (r3 d) h)))
    (fun h => b0 (ix1 h)) (fun h => W1 (ix2 h 0)) (b1 (ix1 0))

/-- The result array `[1024, 200, 1]`: at `(b, t, 0)` the split arrangement's score of position `(b, t)`. -/
def scoreArray (q : (⟨3, ![1024, 1, 128]⟩ : Shape).Idx → EReal) (k : (⟨3, ![1024, 200, 128]⟩ : Shape).Idx → EReal)
    (W0 : (⟨2, ![512, 64]⟩ : Shape).Idx → EReal) (b0 : (⟨1, ![64]⟩ : Shape).Idx → EReal)
    (W1 : (⟨2, ![64, 1]⟩ : Shape).Idx → EReal) (b1 : (⟨1, ![1]⟩ : Shape).Idx → EReal) :
    (⟨3, ![1024, 200, 1]⟩ : Shape).Idx → EReal :=
  fun i => refScore q k W0 b0 W1 b1 ⟨(i 0).val, (i 0).isLt⟩ ⟨(i 1).val, (i 1).isLt⟩

/-- **The two arrangements give one score** when the query, the keys and the hidden layer's weights are finite: the
    folded matrices are `wq = W0[0:128] + W0[256:384]` and `wkp = [W0[128:256] - W0[256:384]; W0[384:512]]`, the
    scorer's column is read as a vector. -/
theorem refScore_eq_rowScore (q : (⟨3, ![1024, 1, 128]⟩ : Shape).Idx → EReal) (k : (⟨3, ![1024, 200, 128]⟩ : Shape).Idx → EReal)
    (W0 : (⟨2, ![512, 64]⟩ : Shape).Idx → EReal) (b0 : (⟨1, ![64]⟩ : Shape).Idx → EReal)
    (W1 : (⟨2, ![64, 1]⟩ : Shape).Idx → EReal) (b1 : (⟨1, ![1]⟩ : Shape).Idx → EReal)
    (wq : (⟨2, ![128, 64]⟩ : Shape).Idx → EReal) (wkp : (⟨2, ![256, 64]⟩ : Shape).Idx → EReal)
    (w1 : (⟨1, ![64]⟩ : Shape).Idx → EReal)
    (hq : ∀ i, q i ≠ ⊤ ∧ q i ≠ ⊥) (hk : ∀ i, k i ≠ ⊤ ∧ k i ≠ ⊥) (hW : ∀ i, W0 i ≠ ⊤ ∧ W0 i ≠ ⊥)
    (hwq : ∀ (d : Fin 128) (h : Fin 64), wq (ix2 d h) = W0 (ix2 (r0 d) h) + W0 (ix2 (r2 d) h))
    (hwk : ∀ (d : Fin 128) (h : Fin 64), wkp (ix2 (lo d) h) = W0 (ix2 (r1 d) h) - W0 (ix2 (r2 d) h))
    (hwp : ∀ (d : Fin 128) (h : Fin 64), wkp (ix2 (hi d) h) = W0 (ix2 (r3 d) h))
    (hw1 : ∀ h : Fin 64, w1 (ix1 h) = W1 (ix2 h 0))
    (b : Fin 1024) (t : Fin 200) :
    refScore q k W0 b0 W1 b1 b t
      = rowScore (fun d => q (ix3 b 0 d)) (fun d => k (ix3 b t d)) wq wkp b0 w1 b1 := by
  unfold refScore rowScore
  simp only [hwq, hwk, hwp, hw1]
  refine congrArg (fun f => score f _ _ _) (funext fun h => ?_)
  exact hid_split_eq_folded _ _ _ _ _ _ (fun d => hq _) (fun d => hk _) (fun d => hW _) (fun d => hW _)
    (fun d => hW _) (fun d => hW _)

end Cert.Score

end
-- ==== Proof.RefScore.lean ====
import proofs.«131782_j36043365548306_2_alg».proof.Proof.Gen.ReferenceIdeal.Read
import proofs.«131782_j36043365548306_2_alg».proof.Proof.Spec
import Idealize.ShloMosaic.Lib.Pipeline.Value
import Idealize.ShloMosaic.Lib.ValueIdx
import Idealize.ShloMosaic.PureOps.Ideal.Laws

/-!
# The reference's result, entry by entry

The reference concatenates `[q, k, q - k, q * k]` along the feature axis (the query row repeated along time),
contracts the 512 features with the hidden layer's matrix, adds the bias, rectifies, contracts the 64 hidden units
with the scorer's column and adds its bias. Read at `(b, t, 0)` this is the split arrangement's score of position
`(b, t)`: the contraction over 512 features is the sum of its four quarters, and in quarter `n` the concatenation
reads its `n`-th piece.
-/

noncomputable section

open scoped BigOperators

namespace Cert.ReferenceIdeal.RefValue

open Cert.ReferenceIdeal Cert.ReferenceIdeal.Read Cert.Score
open Idealize.ShloMosaic Idealize.ShloMosaic.ValueIdx

variable (x0 : (⟨S1024x1x128, .f32⟩ : BufTy).Contents (Elt Ideal)) (x1 : (⟨S1024x200x128, .f32⟩ : BufTy).Contents (Elt Ideal))
  (x2 : (⟨S512x64, .f32⟩ : BufTy).Contents (Elt Ideal)) (x3 : (⟨S64, .f32⟩ : BufTy).Contents (Elt Ideal))
  (x4 : (⟨S64x1, .f32⟩ : BufTy).Contents (Elt Ideal)) (x5 : (⟨S1, .f32⟩ : BufTy).Contents (Elt Ideal))

/-! ## The operations' index maps at an index given by coordinates -/

/-- The query repeated along time reads row `(b, 0)` of the query at every time `t`. -/
theorem query_at (b : Fin 1024) (t : Fin 200) (d : Fin 128) :
    val_main_v0 (F := Ideal) x0 (ix3 b t d) = x0 (ix3 b 0 d) :=
  (val_main_v0_apply x0 (ix3 b t d)).trans (congrArg x0 (funext fun a => Fin.ext (by
    match a with
    | ⟨0, _⟩ => rfl
    | ⟨1, _⟩ => rfl
    | ⟨2, _⟩ => rfl)))

/-- The left operand of the first contraction at output `(b, t, h)` and feature `j` is the feature array at `(b, t, j)`. -/
theorem feat_idx (b : Fin 1024) (t : Fin 200) (h : Fin 64) (j : Fin 512) : lidx_main_v4 (ix3 b t h) j = ix3 b t j :=
  funext fun a => Fin.ext (by
    match a with
    | ⟨0, _⟩ => rfl
    | ⟨1, _⟩ => rfl
    | ⟨2, _⟩ => rfl)

/-- Its right operand is the hidden layer's matrix at `(j, h)`. -/
theorem hidw_idx (b : Fin 1024) (t : Fin 200) (h : Fin 64) (j : Fin 512) : ridx_main_v4 (ix3 b t h) j = ix2 j h :=
  funext fun a => Fin.ext (by
    match a with
    | ⟨0, _⟩ => rfl
    | ⟨1, _⟩ => rfl)

/-- The hidden layer's bias, broadcast twice, reads its entry `h`. -/
theorem bias_idx (b : Fin 1024) (t : Fin 200) (h : Fin 64) : idx_main_v5 (idx_main_v6 (ix3 b t h)) = ix1 h :=
  funext fun a => Fin.ext (by
    match a with
    | ⟨0, _⟩ => rfl)

/-- The left operand of the second contraction at output `(b, t, u)` and hidden unit `h` is the rectified layer at `(b, t, h)`. -/
theorem relu_idx (b : Fin 1024) (t : Fin 200) (u : Fin 1) (h : Fin 64) : lidx_main_v9 (ix3 b t u) h = ix3 b t h :=
  funext fun a => Fin.ext (by
    match a with
    | ⟨0, _⟩ => rfl
    | ⟨1, _⟩ => rfl
    | ⟨2, _⟩ => rfl)

/-- Its right operand is the scorer's column at `(h, 0)`. -/
theorem scorer_idx (b : Fin 1024) (t : Fin 200) (u : Fin 1) (h : Fin 64) : ridx_main_v9 (ix3 b t u) h = ix2 h 0 :=
  funext fun a => Fin.ext (by
    match a with
    | ⟨0, _⟩ => rfl
    | ⟨1, _⟩ => show u.val = 0; omega)

/-- The scorer's bias, broadcast twice, reads its one entry. -/
theorem sbias_idx (b : Fin 1024) (t : Fin 200) (u : Fin 1) : idx_main_v10 (idx_main_v11 (ix3 b t u)) = ix1 0 :=
  funext fun a => Fin.ext (by
    match a with
    | ⟨0, _⟩ => rfl)

/-! ## The concatenated features, quarter by quarter -/

/-- Off the joined axis an index of a piece keeps its coordinates. -/
theorem piece_coords (b : Fin 1024) (t : Fin 200) (d : Fin 128) (j : Fin 512) :
    ∀ a : Fin S1024x200x128.rank, a.cast (rfl : S1024x200x128.rank = S1024x200x512.rank) ≠ (2 : Fin 3) →
      ((ix3 b t d : S1024x200x128.Idx) a).val = ((ix3 b t j : S1024x200x512.Idx) (a.cast rfl)).val := fun a ha => by
  match a with
  | ⟨0, _⟩ => rfl
  | ⟨1, _⟩ => rfl
  | ⟨2, _⟩ => exact absurd rfl ha

/-- First quarter: the query row. -/
theorem feat_q0 (b : Fin 1024) (t : Fin 200) (d : Fin 128) :
    val_main_v3 (F := Ideal) x0 x1 (ix3 b t (r0 d)) = x0 (ix3 b 0 d) := by
  unfold val_main_v3
  refine (concatenate_apply_piece (2 : Fin 3) _ _ (ix3 b t (r0 d)) 0 ?_ S1024x200x128
    (val_main_v0 (F := Ideal) x0) ?_ rfl 0 ?_ (ix3 b t d) (piece_coords b t d _) (Nat.zero_add _)).trans (query_at x0 b t d)
  · show (0 : ℕ) < 4; omega
  · rfl
  · rfl

/-- Second quarter: the key row. -/
theorem feat_q1 (b : Fin 1024) (t : Fin 200) (d : Fin 128) :
    val_main_v3 (F := Ideal) x0 x1 (ix3 b t (r1 d)) = x1 (ix3 b t d) := by
  unfold val_main_v3
  refine concatenate_apply_piece (2 : Fin 3) _ _ (ix3 b t (r1 d)) 1 ?_ S1024x200x128
    x1 ?_ rfl 128 ?_ (ix3 b t d) (piece_coords b t d _) rfl
  · show (1 : ℕ) < 4; omega
  · rfl
  · rfl

/-- Third quarter: query minus key. -/
theorem feat_q2 (b : Fin 1024) (t : Fin 200) (d : Fin 128) :
    val_main_v3 (F := Ideal) x0 x1 (ix3 b t (r2 d)) = x0 (ix3 b 0 d) - x1 (ix3 b t d) := by
  unfold val_main_v3
  refine (concatenate_apply_piece (2 : Fin 3) _ _ (ix3 b t (r2 d)) 2 ?_ S1024x200x128
    (val_main_v1 (F := Ideal) x0 x1) ?_ rfl 256 ?_ (ix3 b t d) (piece_coords b t d _) rfl).trans ?_
  · show (2 : ℕ) < 4; omega
  · rfl
  · rfl
  show val_main_v0 (F := Ideal) x0 (ix3 b t d) - x1 (ix3 b t d) = _
  rw [query_at]

/-- Fourth quarter: query times key. -/
theorem feat_q3 (b : Fin 1024) (t : Fin 200) (d : Fin 128) :
    val_main_v3 (F := Ideal) x0 x1 (ix3 b t (r3 d)) = x0 (ix3 b 0 d) * x1 (ix3 b t d) := by
  unfold val_main_v3
  refine (concatenate_apply_piece (2 : Fin 3) _ _ (ix3 b t (r3 d)) 3 ?_ S1024x200x128
    (val_main_v2 (F := Ideal) x0 x1) ?_ rfl 384 ?_ (ix3 b t d) (piece_coords b t d _) rfl).trans ?_
  · show (3 : ℕ) < 4; omega
  · rfl
  · rfl
  show val_main_v0 (F := Ideal) x0 (ix3 b t d) * x1 (ix3 b t d) = _
  rw [query_at]

/-! ## The hidden pre-activation and the score -/

/-- The contraction over the 512 features is the split arrangement's hidden pre-activation. -/
theorem hidden_at (b : Fin 1024) (t : Fin 200) (h : Fin 64) :
    val_main_v4 (F := Ideal) x0 x1 x2 (ix3 b t h)
      = hidSplit (fun d => x0 (ix3 b 0 d)) (fun d => x1 (ix3 b t d)) (fun d => x2 (ix2 (r0 d) h)) (fun d => x2 (ix2 (r1 d) h))
          (fun d => x2 (ix2 (r2 d) h)) (fun d => x2 (ix2 (r3 d) h)) := by
  rw [val_main_v4_apply, sum_quarters]
  unfold hidSplit
  refine congrArg₂ (· + ·) (congrArg₂ (· + ·) (congrArg₂ (· + ·) ?_ ?_) ?_) ?_ <;> refine Finset.sum_congr rfl fun d _ => ?_
  · exact congrArg₂ (· * ·) ((congrArg _ (feat_idx b t h _)).trans (feat_q0 x0 x1 b t d)) (congrArg x2 (hidw_idx b t h _))
  · exact congrArg₂ (· * ·) ((congrArg _ (feat_idx b t h _)).trans (feat_q1 x0 x1 b t d)) (congrArg x2 (hidw_idx b t h _))
  · exact congrArg₂ (· * ·) ((congrArg _ (feat_idx b t h _)).trans (feat_q2 x0 x1 b t d)) (congrArg x2 (hidw_idx b t h _))
  · exact congrArg₂ (· * ·) ((congrArg _ (feat_idx b t h _)).trans (feat_q3 x0 x1 b t d)) (congrArg x2 (hidw_idx b t h _))

/-- **The reference's result at `(b, t, 0)` is the split arrangement's score of position `(b, t)`.** -/
theorem result_at (b : Fin 1024) (t : Fin 200) (u : Fin 1) :
    val_main_v12 (F := Ideal) x0 x1 x2 x3 x4 x5 (ix3 b t u) = refScore x0 x1 x2 x3 x4 x5 b t := by
  rw [val_main_v12_apply, val_main_v9_apply, val_main_v11_apply, val_main_v10_apply]
  unfold refScore score
  show (∑ h : Fin 64, _) + _ = _
  refine congrArg₂ (· + ·) (Finset.sum_congr rfl fun h _ => ?_) (congrArg x5 (sbias_idx b t u))
  refine congrArg₂ (· * ·) ?_ (congrArg x4 (scorer_idx b t u h))
  refine (congrArg _ (relu_idx b t u h)).trans ?_
  rw [val_main_v8_apply, val_main_v7_apply, val_main_v6_apply, val_main_v5_apply, val_main_call0_v0_apply,
    val_main_call0_cst_apply, hidden_at]
  show max (_ + x3 _) (Ideal.ofBits .f32 0x00000000#32) = _
  rw [Ideal.ofBits_zero_f32, bias_idx]

/-- So the reference's result array is the score array of its arguments. -/
theorem result_eq : val_main_v12 (F := Ideal) x0 x1 x2 x3 x4 x5 = scoreArray x0 x1 x2 x3 x4 x5 := by
  funext i
  obtain ⟨b, t, u, rfl⟩ : ∃ (b : Fin 1024) (t : Fin 200) (u : Fin 1), i = ix3 b t u := ⟨i 0, i 1, i 2, eq_ix3 i⟩
  exact result_at x0 x1 x2 x3 x4 x5 b t u

end Cert.ReferenceIdeal.RefValue

end
-- ==== Proof.LibUnitAxes3.lean ====
import Idealize.ShloMosaic.Lib.Pipeline.Value
import Idealize.ShloMosaic.Lib.ValueIdx

/-!
# Rank-3 arrays with unit axes, read at an index given by coordinates

A matrix `[a, b]` viewed as `[a, 1, b]` (a middle unit axis inserted), a row `[1, b]` viewed as `[1, 1, b]`, and the
three broadcasts of a rank-3 array with one or two unit axes to the full `[a, b, c]`: each reads, at `(i, j, k)`,
the operand at the index that keeps the coordinates on the operand's proper axes and is `0` on its unit axes.
These are the forms an outer sum `s[:, None, :] + p[None, :, :] + bias[None, :, :]` is spelt with.
-/

namespace Idealize.ShloMosaic.ValueIdx

open Idealize.ShloMosaic

variable {α : Type}

/-- An `[a, b]` array cast to `[a, 1, b]` reads, at `(i, u, j)`, the operand at `(i, j)`, whatever the unit
    coordinate `u`: both sit at row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b]` row cast to `[1, 1, b]` reads, at `(u, w, j)`, the operand at `(0, j)`. -/
theorem shapeCast_1b_11b_apply {b : ℕ} (x : (⟨2, ![1, b]⟩ : Shape).Idx → α)
    (h : (⟨2, ![1, b]⟩ : Shape).ShapeCasts ⟨3, ![1, 1, b]⟩) (u w : Fin 1) (j : Fin b) :
    shapeCast ⟨3, ![1, 1, b]⟩ x h (ix3 u w j) = x (ix2 (0 : Fin 1) j) :=
  shapeCast_apply x h _ _ (by
    have hu : u.val = 0 := by omega
    have hw : w.val = 0 := by omega
    rw [Shape.rowMajor_val_three, Shape.rowMajor_val_two]
    show 0 * b + j.val = (u.val * 1 + w.val) * b + j.val
    rw [hu, hw])

/-- An `[a, 1, c]` array broadcast to `[a, b, c]` reads, at `(i, j, k)`, the operand at `(i, 0, k)`: every `j` sees
    the same slab. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.ValueIdx
-- ==== Proof.LibFlattenCasts.lean ====
import Idealize.ShloMosaic.Lib.Pipeline.Value
import Idealize.ShloMosaic.Lib.ValueIdx

/-!
# Shape casts that merge, split or drop axes, read at an index given by coordinates

A rank-3 array `[a, b, c]` viewed as the matrix `[a·b, c]` (its two leading axes merged) and back, an `[a, 1, b]`
array viewed as the matrix `[a, b]` (its middle unit axis dropped), and a vector `[a]` viewed as `[1, 1, a]`: each
reads the operand at the index with the same row-major position. These are the forms a batched matrix product
`x.reshape(a·b, c) @ w`, reshaped back, and a bias `v[None, None, :]` are spelt with.
-/

namespace Idealize.ShloMosaic.ValueIdx

open Idealize.ShloMosaic

variable {α : Type}

/-- An `[a, b, c]` array cast to `[n, c]` reads, at `(R, j)` with `R = p·b + r`, the operand at `(p, r, j)`: both sit at
    row-major position `(p·b + r)·c + j`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (j : Fin c) (R : Fin n)
    (hR : R.val = p.val * b + r.val) :
    shapeCast ⟨2, ![n, c]⟩ x h (ix2 R j) = x (ix3 p r j) :=
  shapeCast_apply x h _ _ (by
    rw [Shape.rowMajor_val_three, Shape.rowMajor_val_two]
    show (p.val * b + r.val) * c + j.val = R.val * c + j.val
    rw [hR])

/-- An `[n, c]` matrix cast to `[a, b, c]` reads, at `(p, r, j)`, the operand at `(R, j)` with `R = p·b + r`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (j : Fin c) (R : Fin n)
    (hR : R.val = p.val * b + r.val) :
    shapeCast ⟨3, ![a, b, c]⟩ x h (ix3 p r j) = x (ix2 R j) :=
  shapeCast_apply x h _ _ (by
    rw [Shape.rowMajor_val_three, Shape.rowMajor_val_two]
    show R.val * c + j.val = (p.val * b + r.val) * c + j.val
    rw [hR])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[a]` cast to `[1, 1, a]` reads, at `(u, w, j)`, the operand at `j`. -/
theorem shapeCast_a_11a_apply {a : ℕ} (x : (⟨1, ![a]⟩ : Shape).Idx → α)
    (h : (⟨1, ![a]⟩ : Shape).ShapeCasts ⟨3, ![1, 1, a]⟩) (u w : Fin 1) (j : Fin a) :
    shapeCast ⟨3, ![1, 1, a]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * a + j.val
    rw [hu, hw]
    simp)

end Idealize.ShloMosaic.ValueIdx
-- ==== Proof.BodyScore.lean ====
import proofs.«131782_j36043365548306_2_alg».proof.Proof.Gen.KernelIdeal.Skeleton
import proofs.«131782_j36043365548306_2_alg».proof.Proof.Spec
import proofs.«131782_j36043365548306_2_alg».proof.Proof.LibUnitAxes3
import proofs.«131782_j36043365548306_2_alg».proof.Proof.LibFlattenCasts
import Idealize.ShloMosaic.Lib.Pipeline.Value
import Idealize.ShloMosaic.Lib.ValueIdx
import Idealize.ShloMosaic.PureOps.Ideal.Laws

/-!
# What the kernel body computes, entry by entry

One grid point holds 32 batch rows. For batch row `p` and time `r` the body stacks the key row and the
query-times-key row into 256 features, multiplies the 6400 stacked rows (row `p·200 + r`) by the stacked
256-row weight matrix, adds the query row's product with the 128-row matrix (the same for every time), the bias,
rectifies, multiplies by the scorer's weights, sums over the 64 hidden units and adds the scorer's bias. Read at
`(p, r)` this is the folded arrangement's score of the query row `p` and the key row `(p, r)`: the contraction
over the 256 stacked features is the sum of its two halves, the first over the key row, the second over the
products. Rounding the operands to bf16 is the identity on the extended reals.
-/

noncomputable section

open scoped BigOperators

namespace Cert.KernelIdeal.BodyValue

open Cert.KernelIdeal Cert.KernelIdeal.Gen Cert.Score
open Idealize.ShloMosaic Idealize.ShloMosaic.ValueIdx

/-! ## The two matrix products at an index: plain sums over the contracted axis -/

theorem keysDot_lhs0 (i : S6400x64.Idx) (q : dot_S6400x256_S256x64_S6400x64_1_0_0_1_n_n.contr.Idx) :
    (dot_S6400x256_S256x64_S6400x64_1_0_0_1_n_n.lhsIdx i q 0).val = (i 0).val := by
  unfold DotDims.lhsIdx
  rw [dif_neg (show ¬(0 : Fin S6400x256.rank) ∈ dot_S6400x256_S256x64_S6400x64_1_0_0_1_n_n.lhsBatch by decide), dif_pos (show (0 : Fin S6400x256.rank) ∈ dot_S6400x256_S256x64_S6400x64_1_0_0_1_n_n.lhsNonContracting by decide)]
  rfl
theorem keysDot_lhs1 (i : S6400x64.Idx) (q : dot_S6400x256_S256x64_S6400x64_1_0_0_1_n_n.contr.Idx) :
    (dot_S6400x256_S256x64_S6400x64_1_0_0_1_n_n.lhsIdx i q 1).val = (q ⟨0, by decide⟩).val :=
  dot_S6400x256_S256x64_S6400x64_1_0_0_1_n_n.lhsIdx_val_of_single rfl i q
theorem keysDot_rhs0 (i : S6400x64.Idx) (q : dot_S6400x256_S256x64_S6400x64_1_0_0_1_n_n.contr.Idx) :
    (dot_S6400x256_S256x64_S6400x64_1_0_0_1_n_n.rhsIdx i q 0).val = (q ⟨0, by decide⟩).val :=
  dot_S6400x256_S256x64_S6400x64_1_0_0_1_n_n.rhsIdx_val_of_single rfl i q
theorem keysDot_rhs1 (i : S6400x64.Idx) (q : dot_S6400x256_S256x64_S6400x64_1_0_0_1_n_n.contr.Idx) :
    (dot_S6400x256_S256x64_S6400x64_1_0_0_1_n_n.rhsIdx i q 1).val = (i 1).val := by
  unfold DotDims.rhsIdx
  rw [dif_neg (show ¬(1 : Fin S256x64.rank) ∈ dot_S6400x256_S256x64_S6400x64_1_0_0_1_n_n.rhsBatch by decide), dif_pos (show (1 : Fin S256x64.rank) ∈ dot_S6400x256_S256x64_S6400x64_1_0_0_1_n_n.rhsNonContracting by decide)]
  rfl

/-- The stacked rows times the stacked weights, into a zero accumulator: at `(R, h)` the sum over the 256 stacked
    features of row `R` against column `h`. -/
theorem keysDot_apply (l : FVec Ideal S6400x256 .bf16) (w : FVec Ideal S256x64 .bf16) (R : Fin 6400) (h : Fin 64) :
    matmul dot_S6400x256_S256x64_S6400x64_1_0_0_1_n_n none l w (constant (F := Ideal) S6400x64 .f32 0x00000000#32) (ix2 R h)
      = ∑ j : Fin 256, l (ix2 R j) * w (ix2 j h) := by
  simp only [matmul]
  rw [Ideal.matmul_constant_zero_apply, ← Equiv.sum_comp (contrEquiv1 dot_S6400x256_S256x64_S6400x64_1_0_0_1_n_n 256 rfl rfl).symm]
  refine Finset.sum_congr rfl fun k _ => ?_
  have hk := contrEquiv1_symm_val dot_S6400x256_S256x64_S6400x64_1_0_0_1_n_n 256 rfl rfl k
  have el : dot_S6400x256_S256x64_S6400x64_1_0_0_1_n_n.lhsIdx (ix2 R h) ((contrEquiv1 dot_S6400x256_S256x64_S6400x64_1_0_0_1_n_n 256 rfl rfl).symm k) = ix2 R k := funext fun a => Fin.ext (by
    match a with
    | ⟨0, _⟩ => exact keysDot_lhs0 _ _
    | ⟨1, _⟩ => exact (keysDot_lhs1 _ _).trans hk)
  have er : dot_S6400x256_S256x64_S6400x64_1_0_0_1_n_n.rhsIdx (ix2 R h) ((contrEquiv1 dot_S6400x256_S256x64_S6400x64_1_0_0_1_n_n 256 rfl rfl).symm k) = ix2 k h := funext fun a => Fin.ext (by
    match a with
    | ⟨0, _⟩ => exact (keysDot_rhs0 _ _).trans hk
    | ⟨1, _⟩ => exact keysDot_rhs1 _ _)
  rw [el, er]

theorem queryDot_lhs0 (i : S32x64.Idx) (q : dot_S32x128_S128x64_S32x64_1_0_0_1_n_n.contr.Idx) :
    (dot_S32x128_S128x64_S32x64_1_0_0_1_n_n.lhsIdx i q 0).val = (i 0).val := by
  unfold DotDims.lhsIdx
  rw [dif_neg (show ¬(0 : Fin S32x128.rank) ∈ dot_S32x128_S128x64_S32x64_1_0_0_1_n_n.lhsBatch by decide), dif_pos (show (0 : Fin S32x128.rank) ∈ dot_S32x128_S128x64_S32x64_1_0_0_1_n_n.lhsNonContracting by decide)]
  rfl
theorem queryDot_lhs1 (i : S32x64.Idx) (q : dot_S32x128_S128x64_S32x64_1_0_0_1_n_n.contr.Idx) :
    (dot_S32x128_S128x64_S32x64_1_0_0_1_n_n.lhsIdx i q 1).val = (q ⟨0, by decide⟩).val :=
  dot_S32x128_S128x64_S32x64_1_0_0_1_n_n.lhsIdx_val_of_single rfl i q
theorem queryDot_rhs0 (i : S32x64.Idx) (q : dot_S32x128_S128x64_S32x64_1_0_0_1_n_n.contr.Idx) :
    (dot_S32x128_S128x64_S32x64_1_0_0_1_n_n.rhsIdx i q 0).val = (q ⟨0, by decide⟩).val :=
  dot_S32x128_S128x64_S32x64_1_0_0_1_n_n.rhsIdx_val_of_single rfl i q
theorem queryDot_rhs1 (i : S32x64.Idx) (q : dot_S32x128_S128x64_S32x64_1_0_0_1_n_n.contr.Idx) :
    (dot_S32x128_S128x64_S32x64_1_0_0_1_n_n.rhsIdx i q 1).val = (i 1).val := by
  unfold DotDims.rhsIdx
  rw [dif_neg (show ¬(1 : Fin S128x64.rank) ∈ dot_S32x128_S128x64_S32x64_1_0_0_1_n_n.rhsBatch by decide), dif_pos (show (1 : Fin S128x64.rank) ∈ dot_S32x128_S128x64_S32x64_1_0_0_1_n_n.rhsNonContracting by decide)]
  rfl

/-- The query rows times the query weights, into a zero accumulator: at `(p, h)` the sum over the 128 features of
    row `p` against column `h`. -/
theorem queryDot_apply (l : FVec Ideal S32x128 .bf16) (w : FVec Ideal S128x64 .bf16) (p : Fin 32) (h : Fin 64) :
    matmul dot_S32x128_S128x64_S32x64_1_0_0_1_n_n none l w (constant (F := Ideal) S32x64 .f32 0x00000000#32) (ix2 p h)
      = ∑ d : Fin 128, l (ix2 p d) * w (ix2 d h) := by
  simp only [matmul]
  rw [Ideal.matmul_constant_zero_apply, ← Equiv.sum_comp (contrEquiv1 dot_S32x128_S128x64_S32x64_1_0_0_1_n_n 128 rfl rfl).symm]
  refine Finset.sum_congr rfl fun k _ => ?_
  have hk := contrEquiv1_symm_val dot_S32x128_S128x64_S32x64_1_0_0_1_n_n 128 rfl rfl k
  have el : dot_S32x128_S128x64_S32x64_1_0_0_1_n_n.lhsIdx (ix2 p h) ((contrEquiv1 dot_S32x128_S128x64_S32x64_1_0_0_1_n_n 128 rfl rfl).symm k) = ix2 p k := funext fun a => Fin.ext (by
    match a with
    | ⟨0, _⟩ => exact queryDot_lhs0 _ _
    | ⟨1, _⟩ => exact (queryDot_lhs1 _ _).trans hk)
  have er : dot_S32x128_S128x64_S32x64_1_0_0_1_n_n.rhsIdx (ix2 p h) ((contrEquiv1 dot_S32x128_S128x64_S32x64_1_0_0_1_n_n 128 rfl rfl).symm k) = ix2 k h := funext fun a => Fin.ext (by
    match a with
    | ⟨0, _⟩ => exact (queryDot_rhs0 _ _).trans hk
    | ⟨1, _⟩ => exact queryDot_rhs1 _ _)
  rw [el, er]

/-! ## The stacked features, half by half -/

/-- In the first half of the stacked features the concatenation reads its first piece. -/
theorem stacked_lo (u v : FVec Ideal S32x200x128 .bf16) (p : Fin 32) (r : Fin 200) (d : Fin 128) :
    concatenate S32x200x256 2 [⟨S32x200x128, u⟩, ⟨S32x200x128, v⟩] concatenates_S32x200x128_S32x200x128_S32x200x256_d2
      (ix3 p r (lo d)) = u (ix3 p r d) :=
  concatenate_pair_apply_left (t := S32x200x256) (2 : Fin 3) u v _ (ix3 p r (lo d)) rfl (ix3 p r d) (fun a => by
    match a with
    | ⟨0, _⟩ => rfl
    | ⟨1, _⟩ => rfl
    | ⟨2, _⟩ => rfl)

/-- In the second half it reads its second piece, 128 features further back. -/
theorem stacked_hi (u v : FVec Ideal S32x200x128 .bf16) (p : Fin 32) (r : Fin 200) (d : Fin 128) :
    concatenate S32x200x256 2 [⟨S32x200x128, u⟩, ⟨S32x200x128, v⟩] concatenates_S32x200x128_S32x200x128_S32x200x256_d2
      (ix3 p r (hi d)) = v (ix3 p r d) :=
  concatenate_pair_apply_right (t := S32x200x256) (2 : Fin 3) u v _ (ix3 p r (hi d)) rfl rfl (ix3 p r d) (fun a ha => by
    match a with
    | ⟨0, _⟩ => rfl
    | ⟨1, _⟩ => rfl
    | ⟨2, _⟩ => exact absurd rfl ha) (Nat.add_comm d.val 128)

/-! ## The body's result at `(p, r)` -/

/-- **The body's stored value at `(p, r)` is the folded arrangement's score** of the block's query row `p` and key
    row `(p, r)`, over the block's weight matrices and biases. -/
theorem pay_at (x0 : Vec Ideal S32x1x128 .f32) (x1 : Vec Ideal S32x200x128 .f32) (x2 : Vec Ideal S128x64 .f32)
    (x3 : Vec Ideal S256x64 .f32) (x4 : Vec Ideal S64 .f32) (x5 : Vec Ideal S64 .f32) (x6 : Vec Ideal S1 .f32)
    (p : Fin 32) (r : Fin 200) :
    k0_pay1 (F := Ideal) x0 x1 x3 x2 x4 x5 x6 (ix2 p r)
      = rowScore (fun d => x0 (ix3 p 0 d)) (fun d => x1 (ix3 p r d)) x2 x3 x4 x5 x6 := by
  unfold k0_pay1 rowScore score
  dsimp only
  -- the scorer's bias is added to the sum over the hidden units
  show (multiReduction (F := Ideal) FKind.add [2] S32x200 _ (0x00000000#32) reduces_S32x200x64_S32x200 _ _ (ix2 p r))
      + extractAt ![0] x6 inpos_S1_p0 = _
  refine congrArg₂ (· + ·) ?_ (congrArg x6 (funext fun a => Fin.ext (by
    match a with
    | ⟨0, _⟩ => rfl)))
  refine (Ideal.multiReduction_add_single _ _ reduces_S32x200x64_S32x200 _ _ (ix2 p r)).trans ?_
  show ∑ h : Fin 64, _ = _
  refine Finset.sum_congr rfl fun h _ => ?_
  have eL : (reduces_S32x200x64_S32x200).lift (ix2 p r) h = ix3 p r h := funext fun a => Fin.ext (by
    match a with
    | ⟨0, _⟩ => rfl
    | ⟨1, _⟩ => rfl
    | ⟨2, _⟩ => rfl)
  refine (congrArg _ eL).trans ?_
  -- one hidden unit: rectified pre-activation times the scorer's weight
  show max ((_ + _) + _) _ * _ = _
  obtain ⟨R, hR⟩ : ∃ R : Fin 6400, R.val = p.val * 200 + r.val := ⟨⟨p.val * 200 + r.val, by omega⟩, rfl⟩
  unfold hidFolded
  refine congrArg₂ (· * ·) (congrArg₂ max (congrArg₂ (· + ·) (congrArg₂ (· + ·) ?_ ?_) ?_) Ideal.ofBits_zero_f32) ?_
  · -- the stacked rows against the stacked weights: the key half and the product half
    refine (shapeCast_nc_abc_apply _ _ p r h R hR).trans ?_
    refine (keysDot_apply _ _ R h).trans ?_
    refine (sum_halves _).trans (congrArg₂ (· + ·) (Finset.sum_congr rfl fun d _ => ?_) (Finset.sum_congr rfl fun d _ => ?_))
    · exact congrArg₂ (· * ·) ((shapeCast_abc_nc_apply _ _ p r (lo d) R hR).trans (stacked_lo _ _ p r d))
        (congrFun (shapeCast_self x3 _) _)
    · refine congrArg₂ (· * ·) ((shapeCast_abc_nc_apply _ _ p r (hi d) R hR).trans ((stacked_hi _ _ p r d).trans ?_))
        (congrFun (shapeCast_self x3 _) _)
      show broadcastTo S32x200x128 _ _ (ix3 p r d) * x1 (ix3 p r d) = _
      exact congrArg (· * x1 (ix3 p r d)) ((broadcastTo_a1c_abc_apply _ _ p r d).trans (congrFun (shapeCast_self x0 _) _))
  · -- the query row against the query weights, the same at every time
    refine (broadcastTo_a1c_abc_apply _ _ p r h).trans ((shapeCast_ab_a1b_apply _ _ p 0 h).trans ((queryDot_apply _ _ p h).trans ?_))
    exact Finset.sum_congr rfl fun d _ => congrArg₂ (· * ·) (shapeCast_a1b_ab_apply x0 _ p d) (congrFun (shapeCast_self x2 _) _)
  · -- the hidden layer's bias
    exact (broadcastTo_11c_abc_apply _ _ p r h).trans (shapeCast_a_11a_apply x4 _ 0 0 h)
  · -- the scorer's weight
    exact (broadcastTo_11c_abc_apply _ _ p r h).trans ((shapeCast_a_11a_apply _ _ 0 0 h).trans (congrFun (shapeCast_self x5 _) _))

end Cert.KernelIdeal.BodyValue

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KernValue.lean ====
import proofs.«131782_j36043365548306_2_alg».proof.Proof.Gen.KernelIdeal.Frame
import proofs.«131782_j36043365548306_2_alg».proof.Proof.BodyScore
import proofs.«131782_j36043365548306_2_alg».proof.Proof.LibColumnCast
import Idealize.ShloMosaic.Lib.Pipeline.Value
import Idealize.ShloMosaic.Lib.ValueIdx
import Idealize.ShloMosaic.Lib.ValueLayout
import Idealize.ShloMosaic.Lib.StableHlo.Run

/-!
# The kernel program's result, entry by entry

Before the region the host prepares the folded weights: the query matrix `W0[0:128] + W0[256:384]`, the stacked
matrix `[W0[128:256] - W0[256:384]; W0[384:512]]`, and the scorer's column read as a vector. Grid point `t` of 32
holds batch rows `32 t … 32 t + 31` of the query, the keys and the result, and the whole of every other operand; the
body stores, at `(p, r)` of its result block, the folded arrangement's score of query row `32 t + p` and key row
`(32 t + p, r)`. The 32 result blocks tile the result array, so after the region the array holds the score of every
position; the host then adds a trailing unit axis. With the query, the keys and the hidden layer's weights finite the
folded arrangement's score is the split arrangement's, over the argument arrays themselves.
-/

noncomputable section
open scoped BigOperators
namespace Cert.KernelIdeal.KernValue
open Cert.KernelIdeal Cert.KernelIdeal.Gen Cert.Score
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The argument arrays as launched, typed as arrays of extended reals. -/
abbrev argQ (c : Dev nD) : FVec Ideal S1024x1x128 .f32 := m ((c : Thread nD τ).loc main_arg0)
abbrev argK (c : Dev nD) : FVec Ideal S1024x200x128 .f32 := m ((c : Thread nD τ).loc main_arg1)
abbrev argW0 (c : Dev nD) : FVec Ideal S512x64 .f32 := m ((c : Thread nD τ).loc main_arg2)
abbrev argB0 (c : Dev nD) : FVec Ideal S64 .f32 := m ((c : Thread nD τ).loc main_arg3)
abbrev argW1 (c : Dev nD) : FVec Ideal S64x1 .f32 := m ((c : Thread nD τ).loc main_arg4)
abbrev argB1 (c : Dev nD) : FVec Ideal S1 .f32 := m ((c : Thread nD τ).loc main_arg5)

/-- The query weights as the region finds them: the first quarter of the hidden layer's matrix plus the third. -/
theorem V_wq (c : Dev nD) : V m c main_v4
    = (addf (extractStridedSlice S128x64 ![0, 0] (argW0 m c) slices_S512x64_S128x64_0_0)
        (extractStridedSlice S128x64 ![256, 0] (argW0 m c) slices_S512x64_S128x64_256_0) : FVec Ideal S128x64 .f32) := by
  show StableHlo.after hostOps0 (fun b => m (c, b)) (Proc.devRef .tc main_v4) = _
  after_results <;> rfl

theorem V_wkp (c : Dev nD) : V m c main_v6
    = (concatenate S256x64 0 [⟨S128x64, (subf (extractStridedSlice S128x64 ![128, 0] (argW0 m c) slices_S512x64_S128x64_128_0)
        (extractStridedSlice S128x64 ![256, 0] (argW0 m c) slices_S512x64_S128x64_256_0) : FVec Ideal S128x64 .f32)⟩,
        ⟨S128x64, (extractStridedSlice S128x64 ![384, 0] (argW0 m c) slices_S512x64_S128x64_384_0 : FVec Ideal S128x64 .f32)⟩]
        concatenates_S128x64_S128x64_S256x64_d0 : FVec Ideal S256x64 .f32) := by
  show StableHlo.after hostOps0 (fun b => m (c, b)) (Proc.devRef .tc main_v6) = _
  after_results <;> rfl

theorem V_w1 (c : Dev nD) : V m c main_v7
    = (shapeCast S64 (argW1 m c) shapeCasts_S64x1_S64 : FVec Ideal S64 .f32) := by
  show StableHlo.after hostOps0 (fun b => m (c, b)) (Proc.devRef .tc main_v7) = _
  after_results <;> rfl

/-! ## The windows' blocks as rows of the arrays -/

/-- The printed index maps over the grid: point `t` takes batch block `t` of the query, the keys and the result, and
    the one block of every other operand. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The batch row of the arrays that row `p` of point `t`'s blocks is. -/
def brow (t : Fin cfg0.N) (p : Fin 32) : Fin 1024 :=
  ⟨32 * t.val + p.val, by have := t.isLt; have h : cfg0.N = 32 := N_0; omega⟩

/-- Row `p` of the query block at point `t` is row `32 t + p` of the query. -/
theorem blkQ (c : Dev nD) (t : Fin cfg0.N) (p : Fin 32) (d : Fin 128) :
    iblk m c 0 t (ix3 p 0 d) = argQ m c (ix3 (brow t p) 0 d) := by
  obtain ⟨e0, e1, e2, -⟩ := idx_facts t
  show V m c main_arg0 (((cfg0.win 0).blk t).view.emb (ix3 p 0 d)) = _
  rw [V_main_arg0]
  refine congrArg (argQ m c) (funext fun a => Fin.ext ?_)
  match a with
  | ⟨0, _⟩ => show win0_0.index t (0 : Fin 3) * 32 + 1 * p.val = 32 * t.val + p.val; omega
  | ⟨1, _⟩ => show win0_0.index t (1 : Fin 3) * 1 + 1 * 0 = 0; omega
  | ⟨2, _⟩ => show win0_0.index t (2 : Fin 3) * 128 + 1 * d.val = d.val; omega

/-- Row `(p, r)` of the key block at point `t` is row `(32 t + p, r)` of the keys. -/
theorem blkK (c : Dev nD) (t : Fin cfg0.N) (p : Fin 32) (r : Fin 200) (d : Fin 128) :
    iblk m c 1 t (ix3 p r d) = argK m c (ix3 (brow t p) r d) := by
  obtain ⟨-, -, -, e0, e1, e2, -⟩ := idx_facts t
  show V m c main_arg1 (((cfg0.win 1).blk t).view.emb (ix3 p r d)) = _
  rw [V_main_arg1]
  refine congrArg (argK m c) (funext fun a => Fin.ext ?_)
  match a with
  | ⟨0, _⟩ => show win0_1.index t (0 : Fin 3) * 32 + 1 * p.val = 32 * t.val + p.val; omega
  | ⟨1, _⟩ => show win0_1.index t (1 : Fin 3) * 200 + 1 * r.val = r.val; omega
  | ⟨2, _⟩ => show win0_1.index t (2 : Fin 3) * 128 + 1 * d.val = d.val; omega

/-- The query weights' one block is the whole array. -/
theorem blkWq (c : Dev nD) (t : Fin cfg0.N) : iblk m c 2 t = V m c main_v4 := by
  obtain ⟨-, -, -, -, -, -, e0, e1, -⟩ := idx_facts t
  funext y
  show V m c main_v4 (((cfg0.win 2).blk t).view.emb y) = V m c main_v4 y
  refine congrArg (V m c main_v4) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The stacked weights' one block is the whole array. -/
theorem blkWkp (c : Dev nD) (t : Fin cfg0.N) : iblk m c 3 t = V m c main_v6 := by
  obtain ⟨-, -, -, -, -, -, -, -, e0, e1, -⟩ := idx_facts t
  funext y
  show V m c main_v6 (((cfg0.win 3).blk t).view.emb y) = V m c main_v6 y
  refine congrArg (V m c main_v6) (funext fun a => Fin.ext ?_)
  match a with
  | ⟨0, _⟩ => show win0_3.index t (0 : Fin 2) * 256 + 1 * (y 0).val = (y 0).val; omega
  | ⟨1, _⟩ => show win0_3.index t (1 : Fin 2) * 64 + 1 * (y 1).val = (y 1).val; omega

/-- The hidden layer's bias: one block, the whole array. -/
theorem blkB0 (c : Dev nD) (t : Fin cfg0.N) : iblk m c 4 t = argB0 m c := by
  obtain ⟨-, -, -, -, -, -, -, -, -, -, e0, -⟩ := idx_facts t
  funext y
  show V m c main_arg3 (((cfg0.win 4).blk t).view.emb y) = _
  rw [V_main_arg3]
  refine congrArg (argB0 m c) (funext fun a => Fin.ext ?_)
  match a with
  | ⟨0, _⟩ => show win0_4.index t (0 : Fin 1) * 64 + 1 * (y 0).val = (y 0).val; omega

/-- The scorer's weights: one block, the whole array. -/
theorem blkW1 (c : Dev nD) (t : Fin cfg0.N) : iblk m c 5 t = V m c main_v7 := by
  obtain ⟨-, -, -, -, -, -, -, -, -, -, -, e0, -⟩ := idx_facts t
  funext y
  show V m c main_v7 (((cfg0.win 5).blk t).view.emb y) = V m c main_v7 y
  refine congrArg (V m c main_v7) (funext fun a => Fin.ext ?_)
  match a with
  | ⟨0, _⟩ => show win0_5.index t (0 : Fin 1) * 64 + 1 * (y 0).val = (y 0).val; omega

/-- The scorer's bias: one block, the whole array. -/
theorem blkB1 (c : Dev nD) (t : Fin cfg0.N) : iblk m c 6 t = argB1 m c := by
  obtain ⟨-, -, -, -, -, -, -, -, -, -, -, -, e0, -⟩ := idx_facts t
  funext y
  show V m c main_arg5 (((cfg0.win 6).blk t).view.emb y) = _
  rw [V_main_arg5]
  refine congrArg (argB1 m c) (funext fun a => Fin.ext ?_)
  match a with
  | ⟨0, _⟩ => show win0_6.index t (0 : Fin 1) * 1 + 1 * (y 0).val = (y 0).val; omega

/-! ## The result array after the region -/

/-- The folded arrangement's score of every position, over the arrays as the region finds them. -/
def kernScore (c : Dev nD) : FVec Ideal S1024x200 .f32 := fun i =>
  rowScore (fun d => argQ m c (ix3 (⟨(i 0).val, (i 0).isLt⟩ : Fin 1024) 0 d))
    (fun d => argK m c (ix3 (⟨(i 0).val, (i 0).isLt⟩ : Fin 1024) (⟨(i 1).val, (i 1).isLt⟩ : Fin 200) d))
    (V m c main_v4) (V m c main_v6) (argB0 m c) (V m c main_v7) (argB1 m c)

/-- What point `t` writes back is block `t` of the score array. -/
theorem flushed_eq (c : Dev nD) (t : Fin cfg0.N) :
    (dats m 0 c).flushed 7 t = ((cfg0.win 7).blk t).view.read (Elt Ideal) (kernScore m c) := by
  show (cfg0.win 7).cut (grid0.coords t) ((dats m 0 c).after 7 t) = _
  rw [after0_7]
  unfold out0_7
  rw [View.canon_unit_zero hz2]
  simp only [View.ld_unit_zero (S := S32x1x128) hz3, View.ld_unit_zero (S := S32x200x128) hz3,
    View.ld_unit_zero (S := S256x64) hz2, View.ld_unit_zero (S := S128x64) hz2, View.ld_unit_zero (S := S64) hz1,
    View.ld_unit_zero (S := S1) hz1]
  obtain ⟨-, -, -, -, -, -, -, -, -, -, -, -, -, e0, e1⟩ := idx_facts t
  funext y
  obtain ⟨p, r, rfl⟩ : ∃ (p : Fin 32) (r : Fin 200), y = ix2 p r := ⟨y 0, y 1, eq_ix2 y⟩
  show k0_pay1 (iblk m c 0 t) (iblk m c 1 t) (iblk m c 3 t) (iblk m c 2 t) (iblk m c 4 t) (iblk m c 5 t) (iblk m c 6 t) (ix2 p r)
    = kernScore m c (((cfg0.win 7).blk t).view.emb (ix2 p r))
  refine (BodyValue.pay_at (iblk m c 0 t) (iblk m c 1 t) (iblk m c 2 t) (iblk m c 3 t) (iblk m c 4 t) (iblk m c 5 t)
    (iblk m c 6 t) p r).trans ?_
  have hb : (⟨((((cfg0.win 7).blk t).view.emb (ix2 p r)) 0).val, ((((cfg0.win 7).blk t).view.emb (ix2 p r)) 0).isLt⟩ : Fin 1024) = brow t p :=
    Fin.ext (by show win0_7.index t (0 : Fin 2) * 32 + 1 * p.val = 32 * t.val + p.val; omega)
  have hr : (⟨((((cfg0.win 7).blk t).view.emb (ix2 p r)) 1).val, ((((cfg0.win 7).blk t).view.emb (ix2 p r)) 1).isLt⟩ : Fin 200) = r :=
    Fin.ext (by show win0_7.index t (1 : Fin 2) * 200 + 1 * r.val = r.val; omega)
  unfold kernScore
  rw [hb, hr, blkWq, blkWkp, blkB0, blkW1, blkB1]
  simp only [blkQ, blkK]

/-- An index of the result array is in point `t`'s block iff each coordinate is in the block's range on its axis. -/
theorem mem_blk (t : Fin cfg0.N) (i : S1024x200.Idx) :
    i ∈ ((cfg0.win 7).blk t).view.set ↔ ∀ a : Fin 2, win0_7.index t a * S32x200.size a ≤ (i a).val
      ∧ (i a).val < win0_7.index t a * S32x200.size a + S32x200.size a := by
  show i ∈ ((View.whole main_v8).slice (win0_7.rect t)).set ↔ _
  rw [View.set_slice_whole, Rect.mem_set_unit]
  exact Iff.rfl

/-- **The result array after the region is the score array**: batch row `b` lies in the block of point `b / 32`. -/
theorem final (c : Dev nD) : (dats m 0 c).arrAt 7 cfg0.N = kernScore m c :=
  (dats m 0 c).arrAt_eq_of_cover 7 (kernScore m c) (fun t _ => flushed_eq m c t) fun i => by
    have hi0 : (i 0).val < 1024 := (i 0).isLt
    have hi1 : (i 1).val < 200 := (i 1).isLt
    have hN : cfg0.N = 32 := N_0
    obtain ⟨t, ht⟩ : ∃ t : Fin cfg0.N, t.val = (i 0).val / 32 := ⟨⟨(i 0).val / 32, by omega⟩, rfl⟩
    obtain ⟨-, -, -, -, -, -, -, -, -, -, -, -, -, e0, e1⟩ := idx_facts t
    refine ⟨t, flush0_7 t, ?_⟩
    rw [mem_blk]
    intro a
    match a with
    | ⟨0, _⟩ =>
      show win0_7.index t (0 : Fin 2) * 32 ≤ (i 0).val ∧ (i 0).val < win0_7.index t (0 : Fin 2) * 32 + 32
      omega
    | ⟨1, _⟩ =>
      show win0_7.index t (1 : Fin 2) * 200 ≤ (i 1).val ∧ (i 1).val < win0_7.index t (1 : Fin 2) * 200 + 200
      omega

/-! ## The host operation after the region: a trailing unit axis -/

/-- @main's result: the score array with a trailing unit axis. -/
theorem tail_eq (c : Dev nD) : Pipeline.afterTail₀ cfgs (dats m) 0 (V0 m) [hostOps1] c main_v9
    = (broadcastInDim S1024x200x1 ![0, 1] bcast_S1024x200_S1024x200x1_0_1 (kernScore m c) : FVec Ideal S1024x200x1 .f32) := by
  unfold Pipeline.afterTail₀
  show StableHlo.after hostOps1 _ (Proc.devRef .tc main_v9) = _
  after_results
  refine congrArg _ ?_
  exact (Pipeline.withArrays_arr spec0 launch0.win.arr_inj c _ _ 7).trans (final m c)

/-- The broadcast reads `(b, t)` at `(b, t, 0)`. -/
theorem unit_axis_at (x : FVec Ideal S1024x200 .f32) (b : Fin 1024) (t : Fin 200) (u : Fin 1) :
    broadcastInDim S1024x200x1 ![0, 1] bcast_S1024x200_S1024x200x1_0_1 x (ix3 b t u) = x (ix2 b t) :=
  broadcastInDim_apply _ bcast_S1024x200_S1024x200x1_0_1 x (ix3 b t u) (ix2 b t) (fun a => by
    match a with
    | ⟨0, _⟩ => show b.val = if (1024 : Nat) = 1 then 0 else b.val; rw [if_neg (by decide)]
    | ⟨1, _⟩ => show t.val = if (200 : Nat) = 1 then 0 else t.val; rw [if_neg (by decide)])

/-! ## The folded weights, entry by entry, and the two arrangements joined -/

/-- The query weights: first quarter plus third quarter of the hidden layer's matrix. -/
theorem wq_at (c : Dev nD) (d : Fin 128) (h : Fin 64) :
    V m c main_v4 (ix2 d h) = argW0 m c (ix2 (r0 d) h) + argW0 m c (ix2 (r2 d) h) := by
  rw [V_wq]
  exact congrArg₂ (· + ·) (slice2_axis0_apply 0 (argW0 m c) _ d h (r0 d) (Nat.zero_add _).symm)
    (slice2_axis0_apply 256 (argW0 m c) _ d h (r2 d) rfl)

/-- The stacked weights' key half: second quarter minus third quarter. -/
theorem wk_at (c : Dev nD) (d : Fin 128) (h : Fin 64) :
    V m c main_v6 (ix2 (lo d) h) = argW0 m c (ix2 (r1 d) h) - argW0 m c (ix2 (r2 d) h) := by
  rw [V_wkp]
  refine (concatenate_pair_apply_left (t := S256x64) (s₁ := S128x64) (s₂ := S128x64) (0 : Fin 2) _ _ _ (ix2 (lo d) h) rfl (ix2 d h) (fun a => by
    match a with
    | ⟨0, _⟩ => rfl
    | ⟨1, _⟩ => rfl)).trans ?_
  exact congrArg₂ (· - ·) (slice2_axis0_apply 128 (argW0 m c) _ d h (r1 d) rfl)
    (slice2_axis0_apply 256 (argW0 m c) _ d h (r2 d) rfl)

/-- The stacked weights' product half: the fourth quarter. -/
theorem wp_at (c : Dev nD) (d : Fin 128) (h : Fin 64) :
    V m c main_v6 (ix2 (hi d) h) = argW0 m c (ix2 (r3 d) h) := by
  rw [V_wkp]
  refine (concatenate_pair_apply_right (t := S256x64) (s₁ := S128x64) (s₂ := S128x64) (0 : Fin 2) _ _ _ (ix2 (hi d) h) rfl rfl (ix2 d h) (fun a ha => by
    match a with
    | ⟨0, _⟩ => exact absurd rfl ha
    | ⟨1, _⟩ => rfl) (Nat.add_comm d.val 128)).trans ?_
  exact slice2_axis0_apply 384 (argW0 m c) _ d h (r3 d) rfl

/-- The scorer's weights: its one column read as a vector. -/
theorem w1_at (c : Dev nD) (h : Fin 64) : V m c main_v7 (ix1 h) = argW1 m c (ix2 h 0) := by
  rw [V_w1]
  exact shapeCast_a1_a_apply _ _ h

/-- **@main's result is the score array of the arguments** when the query, the keys and the hidden layer's weights
    are finite. -/
theorem result_eq (c : Dev nD) (hq : ∀ i, argQ m c i ≠ ⊤ ∧ argQ m c i ≠ ⊥) (hk : ∀ i, argK m c i ≠ ⊤ ∧ argK m c i ≠ ⊥)
    (hW : ∀ i, argW0 m c i ≠ ⊤ ∧ argW0 m c i ≠ ⊥) :
    (broadcastInDim S1024x200x1 ![0, 1] bcast_S1024x200_S1024x200x1_0_1 (kernScore m c) : FVec Ideal S1024x200x1 .f32)
      = scoreArray (argQ m c) (argK m c) (argW0 m c) (argB0 m c) (argW1 m c) (argB1 m c) := by
  funext i
  obtain ⟨b, t, u, rfl⟩ : ∃ (b : Fin 1024) (t : Fin 200) (u : Fin 1), i = ix3 b t u := ⟨i 0, i 1, i 2, eq_ix3 i⟩
  refine (unit_axis_at _ b t u).trans ?_
  exact (refScore_eq_rowScore _ _ _ _ _ _ (V m c main_v4) (V m c main_v6) (V m c main_v7) hq hk hW
    (wq_at m c) (wk_at m c) (wp_at m c) (w1_at m c) b t).symm

/-! ## The run, read -/

/-- Every weakly fair execution of @main terminates with the result at the score array of the arguments and the
    arguments unchanged. -/
theorem run (hfin : ∀ c : Dev nD, (∀ i, argQ m c i ≠ ⊤ ∧ argQ m c i ≠ ⊥) ∧ (∀ i, argK m c i ≠ ⊤ ∧ argK m c i ≠ ⊥)
      ∧ (∀ i, argW0 m c i ≠ ⊤ ∧ argW0 m c i ≠ ⊥)) :
    θ_run defs (onTc (τ := τ) (main (F := Ideal))) ⟨m, fun _ => 0, ρ⟩ fun r => ∀ c : Dev nD,
      r.2.mem ((c.tc : Thread nD τ).loc main_v9)
          = scoreArray (argQ m c) (argK m c) (argW0 m c) (argB0 m c) (argW1 m c) (argB1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans
        ((tail_eq m c).trans (result_eq m c (hfin c).1 (hfin c).2.1 (hfin c).2.2)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c)))⟩)
    (run_main m ρ)

end Cert.KernelIdeal.KernValue
end
-- ==== Proof.lean ====
/-
  The local activation unit: for every batch row `b` and time `t` the score
  `Σ_h max ([q_b, k_bt, q_b - k_bt, q_b * k_bt] · W0[:, h] + b0[h], 0) · W1[h, 0] + b1[0]`.

  The reference computes it as written: it concatenates the four feature blocks and contracts the 512 features with
  the hidden layer's matrix. The kernel folds the query out of the difference block: with the four 128-row quarters
  `Wa, Wb, Wc, Wd` of `W0`,
    `q · Wa + k · Wb + (q - k) · Wc + (q * k) · Wd  =  [k, q * k] · [Wb - Wc; Wd]  +  q · (Wa + Wc)`,
  so one grid point (32 batch rows) multiplies its 6400 stacked rows `[k, q * k]` by the stacked 256-row matrix and
  adds the query rows' product with the 128-row matrix, the same for every time. The identity distributes products over
  sums and differences of entries of `q`, `k` and `W0`; on the extended reals that needs those entries finite, which is
  what the precondition gives (Proof/Finite.lean). The bias, the rectifier and the scorer are the same on both sides
  and need no finiteness; rounding matrix operands to bf16 is the identity on the extended reals.

  The modules: Proof/Spec.lean states the score in both arrangements and proves the identity; Proof/RefScore.lean reads
  the reference's result entry by entry; Proof/BodyScore.lean reads what the kernel body stores at one entry of a block;
  Proof/KernValue.lean reads the folded weight matrices the host prepares, the blocks as rows of the arrays, the result
  array after all 32 grid points and the trailing unit axis the host adds. The three frames are the generated ones (the
  reference's is its generated run with the result dropped); the idealization rewrote nothing.
-/
import proofs.«131782_j36043365548306_2_alg».proof.Defs
import proofs.«131782_j36043365548306_2_alg».proof.Proof.Gen.Kernel
import proofs.«131782_j36043365548306_2_alg».proof.Proof.Gen.Kernel.Skeleton
import proofs.«131782_j36043365548306_2_alg».proof.Proof.Gen.Kernel.Launch
import proofs.«131782_j36043365548306_2_alg».proof.Proof.Gen.Kernel.Points
import proofs.«131782_j36043365548306_2_alg».proof.Proof.Gen.Kernel.Frame
import proofs.«131782_j36043365548306_2_alg».proof.Proof.Gen.KernelIdeal
import proofs.«131782_j36043365548306_2_alg».proof.Proof.Gen.KernelIdeal.Skeleton
import proofs.«131782_j36043365548306_2_alg».proof.Proof.Gen.KernelIdeal.Launch
import proofs.«131782_j36043365548306_2_alg».proof.Proof.Gen.KernelIdeal.Points
import proofs.«131782_j36043365548306_2_alg».proof.Proof.Gen.KernelIdeal.Frame
import proofs.«131782_j36043365548306_2_alg».proof.Proof.Gen.ReferenceIdeal
import proofs.«131782_j36043365548306_2_alg».proof.Proof.Gen.ReferenceIdeal.Run
import proofs.«131782_j36043365548306_2_alg».proof.Proof.Gen.ReferenceIdeal.Read
import proofs.«131782_j36043365548306_2_alg».proof.Proof.Gen.Pre_finite_inputs
import proofs.«131782_j36043365548306_2_alg».proof.Proof.Finite
import proofs.«131782_j36043365548306_2_alg».proof.Proof.RefScore
import proofs.«131782_j36043365548306_2_alg».proof.Proof.KernValue
import Idealize.ShloMosaic.Adequacy
import Idealize.ShloMosaic.Init

noncomputable section

namespace Cert.Proof

open Idealize.ShloMosaic Idealize.SL.Sem Cert.Score

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the score array of the (agreeing) arguments: the kernel in the folded arrangement, which
    is the split one because the query, the keys and the hidden layer's weights are finite; the reference in the split
    arrangement as written. -/
theorem algebraic : Cert.algebraic_KernelIdeal_ReferenceIdeal := by
  intro m ρ m' ρ' hpre hagree
  have hfin := fun c => Cert.Pre_finite_inputs.Finite.finite_of_pre _ _ _ _ _ _ (hpre c)
  refine ⟨fun c => scoreArray (Cert.KernelIdeal.KernValue.argQ m c) (Cert.KernelIdeal.KernValue.argK m c)
      (Cert.KernelIdeal.KernValue.argW0 m c) (Cert.KernelIdeal.KernValue.argB0 m c) (Cert.KernelIdeal.KernValue.argW1 m c)
      (Cert.KernelIdeal.KernValue.argB1 m c), Cert.KernelIdeal.KernValue.run m ρ hfin, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v12_eq _ _ _ _ _ _).trans (Cert.ReferenceIdeal.RefValue.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
